-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x1024 : Shape := ⟨3, ![64, 1024, 1024]⟩
abbrev S_ : Shape := ⟨0, ![]⟩

class Facts : Prop where
  bcast_S_S64x1024x1024 : S_.BroadcastsInDim S64x1024x1024 (![] : Fin 0 → Fin S64x1024x1024.rank)
  reducesTo_S64x1024x1024_S_d0_1_2 : S64x1024x1024.ReducesTo [0, 1, 2] S_
  h_S_ : 0 < S_.numel

variable [Facts]

def fn {F : FTy → Type} [FloatOps F] (main_arg0 : FVec F S64x1024x1024 .f32) : IVec S_ 1 :=
  let main_v0 : FVec F S64x1024x1024 .f32 := Host.absf main_arg0
  let main_cst : FVec F S_ .f32 := constant S_ .f32 0x7F800000#32
  let main_v1 : FVec F S64x1024x1024 .f32 := broadcastInDim S64x1024x1024 ![] bcast_S_S64x1024x1024 main_cst
  let main_v2 : IVec S64x1024x1024 1 := cmpf .olt main_v0 main_v1
  let main_c : IVec S_ 1 := constantI S_ 1 1#1
  let main_v3 : IVec S_ 1 := (fun x v => Host.reduce IntOp.andi x v reducesTo_S64x1024x1024_S_d0_1_2 h_S_) main_v2 main_c
  main_v3
-- ==== Kernel.lean ====
abbrev S64x1024x1024 : Shape := ⟨3, ![64, 1024, 1024]⟩
abbrev S64x1x1024 : Shape := ⟨3, ![64, 1, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩
abbrev S64x1024 : Shape := ⟨2, ![64, 1024]⟩

abbrev nBuf : Space → Nat
  | .hbm => 3
  | .vmem => 6
  | .smem => 0
  | _ => 0

abbrev bufTy : (tb : Table) → Fin (tcTables nBuf tb) → BufTy
  | .hbm, ⟨0, _⟩ => ⟨S64x1024x1024, .f32⟩
  | .hbm, ⟨1, _⟩ => ⟨S64x1x1024, .f32⟩
  | .hbm, ⟨2, _⟩ => ⟨S64x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1024x1024, .bf16⟩
  | .local _ .vmem, ⟨5, _⟩ => ⟨S1x1024, .f32⟩
  | _, _ => ⟨S64x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c4_i32 : BitVec 32 := 4#32
  let v10 : BitVec 32 := Scalar.addi c0_i32 c4_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c256_i32 : BitVec 32 := 256#32
  let v28 : BitVec 32 := Scalar.muli arg5 c256_i32
  v28
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c256_i32 : BitVec 32 := 256#32
  let v28 : BitVec 32 := Scalar.muli arg5 c256_i32
  let v29 : BitVec 32 := v28
  let v30 : Index := Scalar.indexCast v29
  let c0_18 : Index := 0#32
  ![v30.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  h_S256x1024 : 0 < S256x1024.numel
  reduces_S256x1024_S256 : S256x1024.Reduces [1] S256
  shapeCasts_S256_S256x1 : S256.ShapeCasts S256x1
  broadcasts_S256x1_S256x1024 : S256x1.Broadcasts S256x1024
  reduces_S256x1024_S1024 : S256x1024.Reduces [0] S1024
  shapeCasts_S1024_S1x1024 : S1024.ShapeCasts S1x1024
  reduces_S1x1024_S1 : S1x1024.Reduces [1] S1
  shapeCasts_S1_S1x1 : S1.ShapeCasts S1x1
  broadcasts_S1x1_S1x1024 : S1x1.Broadcasts S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S64x1x1024_S64x1024 : S64x1x1024.ShapeCasts S64x1024
  dot_S256x1024_S1024x1024_S256x1024_1_1_0_0_n_n_wf : DotDims.WF S256x1024 S1024x1024 S256x1024 [1] [1] [0] [0] [] []
  dot_S1x1024_S1024x1024_S1x1024_1_0_0_1_n_n_wf : DotDims.WF S1x1024 S1024x1024 S1x1024 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x1024.size a ≤ S1024x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S64x1024x1024.size a
  hwx0_0 : ∀ i : grid0.Coords, EltTy.bits .f32 = 32 ∨ (Rect.block (s := S64x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S64x1x1024.size a
  hwx0_1 : ∀ i : grid0.Coords, EltTy.bits .f32 = 32 ∨ (Rect.block (s := S64x1x1024) S1x1x1024.size (cc0_transform_1 i) (hinb0_1 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x1024x1024 : Shape := ⟨3, ![64, 1024, 1024]⟩
abbrev S_ : Shape := ⟨0, ![]⟩
abbrev S64x1024 : Shape := ⟨2, ![64, 1024]⟩
abbrev S64x1024x1 : Shape := ⟨3, ![64, 1024, 1]⟩
abbrev S64 : Shape := ⟨1, ![64]⟩
abbrev S64x1 : Shape := ⟨2, ![64, 1]⟩

abbrev nBuf : Space → Nat
  | .hbm => 32
  | .vmem => 0
  | .smem => 0
  | _ => 0

abbrev bufTy : (tb : Table) → Fin (tcTables nBuf tb) → BufTy
  | .hbm, ⟨0, _⟩ => ⟨S64x1024x1024, .f32⟩
  | .hbm, ⟨1, _⟩ => ⟨S64x1024x1024, .f32⟩
  | .hbm, ⟨2, _⟩ => ⟨S_, .f32⟩
  | .hbm, ⟨3, _⟩ => ⟨S64x1024, .f32⟩
  | .hbm, ⟨4, _⟩ => ⟨S_, .f32⟩
  | .hbm, ⟨5, _⟩ => ⟨S64x1024, .f32⟩
  | .hbm, ⟨6, _⟩ => ⟨S64x1024, .f32⟩
  | .hbm, ⟨7, _⟩ => ⟨S64x1024x1, .f32⟩
  | .hbm, ⟨8, _⟩ => ⟨S64x1024x1024, .f32⟩
  | .hbm, ⟨9, _⟩ => ⟨S64x1024x1024, .f32⟩
  | .hbm, ⟨10, _⟩ => ⟨S64x1024x1024, .f32⟩
  | .hbm, ⟨11, _⟩ => ⟨S_, .f32⟩
  | .hbm, ⟨12, _⟩ => ⟨S64x1024, .f32⟩
  | .hbm, ⟨13, _⟩ => ⟨S64x1024x1, .f32⟩
  | .hbm, ⟨14, _⟩ => ⟨S64x1024x1024, .f32⟩
  | .hbm, ⟨15, _⟩ => ⟨S64x1024x1024, .f32⟩
  | .hbm, ⟨16, _⟩ => ⟨S64x1024x1024, .f32⟩
  | .hbm, ⟨17, _⟩ => ⟨S_, .f32⟩
  | .hbm, ⟨18, _⟩ => ⟨S64x1024, .f32⟩
  | .hbm, ⟨19, _⟩ => ⟨S_, .f32⟩
  | .hbm, ⟨20, _⟩ => ⟨S64x1024, .f32⟩
  | .hbm, ⟨21, _⟩ => ⟨S64x1024, .f32⟩
  | .hbm, ⟨22, _⟩ => ⟨S64x1024, .f32⟩
  | .hbm, ⟨23, _⟩ => ⟨S_, .f32⟩
  | .hbm, ⟨24, _⟩ => ⟨S64, .f32⟩
  | .hbm, ⟨25, _⟩ => ⟨S64x1, .f32⟩
  | .hbm, ⟨26, _⟩ => ⟨S64x1, .f32⟩
  | .hbm, ⟨27, _⟩ => ⟨S_, .f32⟩
  | .hbm, ⟨28, _⟩ => ⟨S64x1, .f32⟩
  | .hbm, ⟨29, _⟩ => ⟨S64x1, .f32⟩
  | .hbm, ⟨30, _⟩ => ⟨S64x1024, .f32⟩
  | .hbm, ⟨31, _⟩ => ⟨S64x1024, .f32⟩
  | _, _ => ⟨S64x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  reducesTo_S64x1024x1024_S64x1024_d2 : S64x1024x1024.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  reducesTo_S64x1024x1024_S64x1024_d1 : S64x1024x1024.ReducesTo [1] S64x1024
  reducesTo_S64x1024_S64_d1 : S64x1024.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x1024_0_1 : S64x1.BroadcastsInDim S64x1024 (![0, 1] : Fin 2 → Fin S64x1024.rank)
  dot_S64x1024x1024_S64x1024x1024_S64x1024x1024_2_2_1_1_0_0_wf : DotDims.WF S64x1024x1024 S64x1024x1024 S64x1024x1024 [2] [2] [1] [1] [0] [0]
  dot_S64x1024x1024_S64x1024x1024_S64x1024x1024_2_1_1_2_0_0_wf : DotDims.WF S64x1024x1024 S64x1024x1024 S64x1024x1024 [2] [1] [1] [2] [0] [0]

variable [Facts₀]

def dot_S64x1024x1024_S64x1024x1024_S64x1024x1024_2_2_1_1_0_0 : DotDims S64x1024x1024 S64x1024x1024 S64x1024x1024 where
  lhsContracting := [2]
  rhsContracting := [2]
  lhsNonContracting := [1]
  rhsNonContracting := [1]
  lhsBatch := [0]
  rhsBatch := [0]
  wf := dot_S64x1024x1024_S64x1024x1024_S64x1024x1024_2_2_1_1_0_0_wf
def dot_S64x1024x1024_S64x1024x1024_S64x1024x1024_2_1_1_2_0_0 : DotDims S64x1024x1024 S64x1024x1024 S64x1024x1024 where
  lhsContracting := [2]
  rhsContracting := [1]
  lhsNonContracting := [1]
  rhsNonContracting := [2]
  lhsBatch := [0]
  rhsBatch := [0]
  wf := dot_S64x1024x1024_S64x1024x1024_S64x1024x1024_2_1_1_2_0_0_wf

class Facts : Prop extends Facts₀ where

variable [Facts]
-- ==== Proof.Pool.lean ====
/-
  The mathematics both programs compute, for one batch entry: a 1024 × 1024 matrix `X` of extended reals
  (rows `c`, columns `n`).

    scores c d = ∑ₙ X c n · X d n                      (X · Xᵀ)
    attn c d   = exp (scores c d − maxₑ scores c e) / ∑ₑ exp (scores c e − maxₑ' scores c e')   (a row softmax)

  One program forms `attn · X`, sums its 1024 rows and divides by 1024 (`pooledR`). The other sums the
  rows of `attn` first — 256 rows at a time, four partial sums added in order onto a zero — scales the
  column sums by 1/1024 and multiplies the resulting row vector into `X` (`pooledK`). For a matrix of real
  entries the two agree (the mean over rows is linear, so it commutes with the product by `X`); the module
  that proves it is separate. Both then divide the pooled row by `max (‖row‖₂, ε)` (`normalize`).

  Float words are kept as the words the programs spell: the same word on both sides is never evaluated.
-/
import Idealize.ShloMosaic.PureOps.Ideal

noncomputable section

namespace Cert.Pool

open Idealize.ShloMosaic

/-- One batch entry: rows `c`, columns `n`. -/
abbrev Mat := Fin 1024 → Fin 1024 → EReal

/-- The words the programs spell. -/
abbrev ninf : EReal := Ideal.ofBits .f32 0xFF800000#32
abbrev zero : EReal := Ideal.ofBits .f32 0x00000000#32
abbrev k1024 : EReal := Ideal.ofBits .f32 0x44800000#32
abbrev kinv : EReal := Ideal.ofBits .f32 0x3A800000#32
abbrev eps : EReal := Ideal.ofBits .f32 0x2B8CBCCC#32

/-- `X · Xᵀ`: the inner product of rows `c` and `d`. -/
def scores (X : Mat) (c d : Fin 1024) : EReal := ∑ n : Fin 1024, X c n * X d n

/-- The largest score of row `c`, folded from minus infinity. -/
def rowMax (X : Mat) (c : Fin 1024) : EReal := Finset.univ.fold max ninf (fun d : Fin 1024 => scores X c d)

/-- The shifted exponential of a score. -/
def expo (X : Mat) (c d : Fin 1024) : EReal := Ideal.exp (scores X c d - rowMax X c)

/-- The softmax denominator of row `c`. -/
def denom (X : Mat) (c : Fin 1024) : EReal := ∑ d : Fin 1024, expo X c d

/-- The softmax weight of key `d` for query `c`. -/
def attn (X : Mat) (c d : Fin 1024) : EReal := Ideal.div (expo X c d) (denom X c)

/-- Row `r` of the `k`-th group of 256 query rows. -/
def tileRow (k : Fin 4) (r : Fin 256) : Fin 1024 := ⟨256 * k.val + r.val, by have := k.isLt; have := r.isLt; omega⟩

/-- The sum of column `d` of `attn` over the `k`-th group of 256 query rows. -/
def tileSum (X : Mat) (k : Fin 4) (d : Fin 1024) : EReal := ∑ r : Fin 256, attn X (tileRow k r) d

/-- The column sums of `attn`, accumulated group by group onto a zero, in order. -/
def colSum (X : Mat) (d : Fin 1024) : EReal :=
  (((zero + tileSum X 0 d) + tileSum X 1 d) + tileSum X 2 d) + tileSum X 3 d

/-- The pooled row, column sums first: `((∑_c attn c ·) · 1/1024) · X`. -/
def pooledK (X : Mat) (n : Fin 1024) : EReal := ∑ d : Fin 1024, (colSum X d * kinv) * X d n

/-- The pooled row, product first: `(∑_c (attn · X) c ·) / 1024`. -/
def pooledR (X : Mat) (n : Fin 1024) : EReal :=
  Ideal.div (∑ c : Fin 1024, ∑ d : Fin 1024, attn X c d * X d n) k1024

/-- A row divided by the larger of its Euclidean norm and `ε`. -/
def normalize (p : Fin 1024 → EReal) (n : Fin 1024) : EReal :=
  Ideal.div (p n) (max (Ideal.sqrt (∑ j : Fin 1024, p j * p j)) eps)

end Cert.Pool

end
-- ==== Proof.KDefs.lean ====
/-
  The kernel body's value for one batch entry, as one pure term of the input block.

  The body keeps the block `x` (1024 rows, 1024 columns) and an accumulator row of 1024 entries. It walks
  the 1024 query rows in four groups of 256: for group `k` it forms the scores of those rows against all
  rows, takes the row softmax, and adds the column sums of the 256 softmax rows onto the accumulator
  (`accAt`: zero, then one such step per group, in order). The result is the normalised product of the
  scaled accumulator row with the block (`bodyVal`). Stated at any float instance; read at the extended
  reals elsewhere.
-/
import proofs.«142518_j44805098832563_2_alg».proof.Proof.Gen.KernelIdeal.Skeleton
import proofs.«142518_j44805098832563_2_alg».proof.Proof.Pool
import Idealize.ShloMosaic.Lib.ValueIdx

noncomputable section

namespace Cert.KernelIdeal.Body

open Cert.KernelIdeal Cert.KernelIdeal.Gen Idealize.ShloMosaic

variable {F : FTy → Type} [FloatOps F]

/-- The 256 rows of group `k`, read out of the whole block. -/
def rowsOf (k : Fin k0_t1_loop.trips) (Xb : Vec F S1024x1024 .bf16) : Vec F S256x1024 .bf16 :=
  fun j => Xb ((Rect.unit (s := S1024x1024) (k0_off1 k) S256x1024.size (k0_off1_inb k)).toLoadRect.idx j)

/-- The accumulator row after the first `k` groups: zero, then one group's column sums added per step. -/
def accAt (Xb : Vec F S1024x1024 .bf16) : ℕ → Vec F S1x1024 .f32
  | 0 => k0_pay2
  | k + 1 => if h : k < k0_t1_loop.trips then k0_pay3 (rowsOf ⟨k, h⟩ Xb) Xb (accAt Xb k) else accAt Xb k

/-- What the body leaves in the output block, from the input block alone. -/
def bodyVal (x : Vec F S1x1024x1024 .f32) : Vec F S1x1x1024 .f32 :=
  k0_pay4 (accAt (k0_pay1 x) k0_t1_loop.trips) (k0_pay1 x)

/-- A block of extended reals as a matrix: rows `c`, columns `n`. -/
def mat (Xb : FVec Ideal S1024x1024 .bf16) : Cert.Pool.Mat := fun c n => Xb (ValueIdx.ix2 c n)

end Cert.KernelIdeal.Body

end
-- ==== Proof.KStep.lean ====
/-
  One step of the kernel body's loop, read at an index at the extended reals.

  The body walks the 1024 query rows of the block `X` in four groups of 256. For group `k` it takes rows
  `256·k … 256·k + 255` of the block, forms their inner products with every row (the scores), subtracts
  from each score its row's maximum and exponentiates, divides each exponential by its row's sum (a row
  softmax), and adds the sum of each column over the 256 rows onto the accumulator row.

  Every operation of the step is the same extended-real operation the plain functions of the mathematics
  use, so at column `d` the step's value is the accumulator's entry plus `∑ r, attn X (256·k + r) d`:
  no finiteness is needed, only the reading of each vector operation at an index — the product as a sum
  over the contracted axis, a one-axis reduction as a sum or a fold of `max` over that axis, a column of
  row values spread along the rows as the row's value.
-/
import proofs.«142518_j44805098832563_2_alg».proof.Proof.KDefs
import Idealize.ShloMosaic.PureOps.Ideal.Laws
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx

/-! ## The loop's trip count and the rows of a group -/

/-- The loop runs four times. -/
theorem trips_eq : k0_t1_loop.trips = 4 := by decide +kernel

/-- Group `k` starts at row `256·k` … -/
theorem off1_zero (k : Fin k0_t1_loop.trips) : k0_off1 k 0 = 256 * k.val := by
  rw [k0_off1_eq k]; rfl

/-- … and at column `0`. -/
theorem off1_one (k : Fin k0_t1_loop.trips) : k0_off1 k 1 = 0 := by
  rw [k0_off1_eq k]; rfl

/-- group k's rows are rows 256·k … 256·k+255 of the block -/
theorem rowsOf_apply (k : Fin k0_t1_loop.trips) (hk : k.val < 4) (Xb : FVec Ideal S1024x1024 .bf16) (r : Fin 256) (n : Fin 1024) :
    rowsOf (F := Ideal) k Xb (ix2 r n) = Xb (ix2 (Cert.Pool.tileRow ⟨k.val, hk⟩ r) n) := by
  unfold rowsOf
  refine congrArg Xb (funext fun a => Fin.ext ?_)
  match a with
  | ⟨0, _⟩ =>
    show k0_off1 k 0 + 1 * r.val = 256 * k.val + r.val
    rw [off1_zero k, Nat.one_mul]
  | ⟨1, _⟩ =>
    show k0_off1 k 1 + 1 * n.val = n.val
    rw [off1_one k, Nat.one_mul, Nat.zero_add]

/-! ## The product of 256 rows with all rows, read at an index

The product contracts the column axis of both operands: entry `(r, d)` is the inner product of row `r` of the
left operand with row `d` of the right one. -/

/-- The left operand's row is the result's row. -/
theorem dot_lhs0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide),
    dif_pos (show (0 : Fin S256x1024.rank) ∈ dot_S256x1024_S1024x1024_S256x1024_1_1_0_0_n_n.lhsNonContracting by decide)]
  rfl

/-- The left operand's column is the contraction position. -/
theorem dot_lhs1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q

/-- The right operand's row is the result's column. -/
theorem dot_rhs0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide),
    dif_pos (show (0 : Fin S1024x1024.rank) ∈ dot_S256x1024_S1024x1024_S256x1024_1_1_0_0_n_n.rhsNonContracting by decide)]
  rfl

/-- The right operand's column is the contraction position. -/
theorem dot_rhs1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- Entry `(r, d)` of the product into a zero accumulator: the inner product of row `r` of `V` and row `d` of `Xb`. -/
theorem scoresT (V : FVec Ideal S256x1024 .bf16) (Xb : FVec Ideal S1024x1024 .bf16) (r : Fin 256) (d : Fin 1024) :
    matmul (F := Ideal) dot_S256x1024_S1024x1024_S256x1024_1_1_0_0_n_n none V Xb
        (constant (F := Ideal) S256x1024 .f32 0x00000000#32) (ix2 r d)
      = ∑ n : Fin 1024, V (ix2 r n) * Xb (ix2 d n) := by
  refine (Ideal.matmul_constant_zero_apply dot_S256x1024_S1024x1024_S256x1024_1_1_0_0_n_n none V Xb (ix2 r d)).trans ?_
  rw [← Equiv.sum_comp (ValueIdx.contrEquiv1 dot_S256x1024_S1024x1024_S256x1024_1_1_0_0_n_n 1024 rfl rfl).symm]
  refine Finset.sum_congr rfl fun n _ => ?_
  have hn := ValueIdx.contrEquiv1_symm_val dot_S256x1024_S1024x1024_S256x1024_1_1_0_0_n_n 1024 rfl rfl n
  have el : dot_S256x1024_S1024x1024_S256x1024_1_1_0_0_n_n.lhsIdx (ix2 r d)
      ((ValueIdx.contrEquiv1 dot_S256x1024_S1024x1024_S256x1024_1_1_0_0_n_n 1024 rfl rfl).symm n) = ix2 r n :=
    funext fun a => Fin.ext (by
      match a with
      | ⟨0, _⟩ => exact dot_lhs0 _ _
      | ⟨1, _⟩ => exact (dot_lhs1 _ _).trans hn)
  have er : dot_S256x1024_S1024x1024_S256x1024_1_1_0_0_n_n.rhsIdx (ix2 r d)
      ((ValueIdx.contrEquiv1 dot_S256x1024_S1024x1024_S256x1024_1_1_0_0_n_n 1024 rfl rfl).symm n) = ix2 d n :=
    funext fun a => Fin.ext (by
      match a with
      | ⟨0, _⟩ => exact dot_rhs0 _ _
      | ⟨1, _⟩ => exact (dot_rhs1 _ _).trans hn)
  rw [el, er]

/-! ## The reductions and the spread of a column of row values, read at an index -/

/-- Over row `r` of the result, the source index with column `d` put back is `(r, d)`. -/
theorem lift_row (r : Fin 256) (d : Fin 1024) : reduces_S256x1024_S256.lift (ix1 r) d = ix2 r d :=
  funext fun a => Fin.ext (by
    match a with
    | ⟨0, _⟩ => rfl
    | ⟨1, _⟩ => rfl)

/-- Over column `d` of the result, the source index with row `r` put back is `(r, d)`. -/
theorem lift_col (d : Fin 1024) (r : Fin 256) : reduces_S256x1024_S1024.lift (ix1 d) r = ix2 r d :=
  funext fun a => Fin.ext (by
    match a with
    | ⟨0, _⟩ => rfl
    | ⟨1, _⟩ => rfl)

/-- A row maximum: the fold of `max` from minus infinity over the row's entries. -/
theorem rowmaxT (S : FVec Ideal S256x1024 .f32) (r : Fin 256) :
    multiReduction (F := Ideal) .maximumf [1] S256 S 0xFF800000#32 reduces_S256x1024_S256 (.inl rfl) rfl (ix1 r)
      = Finset.univ.fold max Cert.Pool.ninf (fun d : Fin 1024 => S (ix2 r d)) :=
  (Ideal.multiReduction_maximumf_single S _ reduces_S256x1024_S256 (.inl rfl) rfl (ix1 r)).trans
    (congrArg (Finset.univ.fold max Cert.Pool.ninf) (funext fun d => congrArg S (lift_row r d)))

/-- A row sum: the sum of the row's entries. -/
theorem rowsumT (E : FVec Ideal S256x1024 .f32) (r : Fin 256) :
    multiReduction (F := Ideal) .add [1] S256 E 0x00000000#32 reduces_S256x1024_S256 (.inl rfl) rfl (ix1 r)
      = ∑ d : Fin 1024, E (ix2 r d) :=
  (Ideal.multiReduction_add_single E _ reduces_S256x1024_S256 (.inl rfl) rfl (ix1 r)).trans
    (Finset.sum_congr rfl fun d _ => congrArg E (lift_row r d))

/-- A column sum: the sum of the column's entries over the 256 rows. -/
theorem colsumT (A : FVec Ideal S256x1024 .f32) (d : Fin 1024) :
    multiReduction (F := Ideal) .add [0] S1024 A 0x00000000#32 reduces_S256x1024_S1024 (.inl rfl) rfl (ix1 d)
      = ∑ r : Fin 256, A (ix2 r d) :=
  (Ideal.multiReduction_add_single A _ reduces_S256x1024_S1024 (.inl rfl) rfl (ix1 d)).trans
    (Finset.sum_congr rfl fun r _ => congrArg A (lift_col d r))

/-- One value per row, written as a column and spread along the rows: entry `(r, d)` is row `r`'s value. -/
theorem keepcolT {α : Type} (v : S256.Idx → α) (r : Fin 256) (d : Fin 1024) :
    broadcastTo S256x1024 (shapeCast S256x1 v shapeCasts_S256_S256x1) broadcasts_S256x1_S256x1024 (ix2 r d)
      = v (ix1 r) := by
  refine (broadcastTo_apply _ broadcasts_S256x1_S256x1024 (ix2 r d) (ix2 r (0 : Fin 1)) fun a => ?_).trans ?_
  · match a with
    | ⟨0, _⟩ => rfl
    | ⟨1, _⟩ => rfl
  · refine shapeCast_apply v shapeCasts_S256_S256x1 (ix2 r (0 : Fin 1)) (ix1 r) ?_
    rw [Shape.rowMajor_val_one, Shape.rowMajor_val_two]
    show r.val = r.val * 1 + 0
    omega

/-- A row of 1024 values written as a one-row matrix: entry `(0, d)` is the `d`-th value. -/
theorem rowcastT {α : Type} (v : S1024.Idx → α) (u : Fin 1) (d : Fin 1024) :
    shapeCast S1x1024 v shapeCasts_S1024_S1x1024 (ix2 u d) = v (ix1 d) :=
  shapeCast_a_1a_apply v shapeCasts_S1024_S1x1024 u d

/-! ## The three stages of one step, as vectors of extended reals -/

/-- The scores of the 256 rows `V` against all rows of `Xb`. -/
def scV (V : FVec Ideal S256x1024 .bf16) (Xb : FVec Ideal S1024x1024 .bf16) : FVec Ideal S256x1024 .f32 :=
  matmul (F := Ideal) dot_S256x1024_S1024x1024_S256x1024_1_1_0_0_n_n none V Xb
    (constant (F := Ideal) S256x1024 .f32 0x00000000#32)

/-- Each score less its row's maximum, exponentiated. -/
def exV (S : FVec Ideal S256x1024 .f32) : FVec Ideal S256x1024 .f32 :=
  exp (subf S (broadcastTo S256x1024 (shapeCast S256x1
    (multiReduction (F := Ideal) .maximumf [1] S256 S 0xFF800000#32 reduces_S256x1024_S256 (.inl rfl) rfl)
    shapeCasts_S256_S256x1) broadcasts_S256x1_S256x1024))

/-- Each entry over its row's sum. -/
def atV (E : FVec Ideal S256x1024 .f32) : FVec Ideal S256x1024 .f32 :=
  divf E (broadcastTo S256x1024 (shapeCast S256x1
    (multiReduction (F := Ideal) .add [1] S256 E 0x00000000#32 reduces_S256x1024_S256 (.inl rfl) rfl)
    shapeCasts_S256_S256x1) broadcasts_S256x1_S256x1024)

/-- The step's value is the accumulator plus the column sums of the three stages composed. -/
theorem pay3_eq (V : FVec Ideal S256x1024 .bf16) (Xb : FVec Ideal S1024x1024 .bf16) (acc : FVec Ideal S1x1024 .f32) :
    k0_pay3 (F := Ideal) V Xb acc
      = shapeCast S1x1024 (addf acc (shapeCast S1x1024
          (multiReduction (F := Ideal) .add [0] S1024 (atV (exV (scV V Xb))) 0x00000000#32 reduces_S256x1024_S1024 (.inl rfl) rfl)
          shapeCasts_S1024_S1x1024)) shapeCasts_S1x1024_S1x1024 := rfl

/-- A shifted exponential at an entry. -/
theorem exV_apply (S : FVec Ideal S256x1024 .f32) (r : Fin 256) (d : Fin 1024) :
    exV S (ix2 r d)
      = Ideal.exp (S (ix2 r d) - Finset.univ.fold max Cert.Pool.ninf (fun e : Fin 1024 => S (ix2 r e))) :=
  congrArg (fun m => Ideal.exp (S (ix2 r d) - m)) ((keepcolT _ r d).trans (rowmaxT S r))

/-- A normalised entry. -/
theorem atV_apply (E : FVec Ideal S256x1024 .f32) (r : Fin 256) (d : Fin 1024) :
    atV E (ix2 r d) = Ideal.div (E (ix2 r d)) (∑ e : Fin 1024, E (ix2 r e)) :=
  congrArg (Ideal.div (E (ix2 r d))) ((keepcolT _ r d).trans (rowsumT E r))

/-! ## The stages of group `k` are the softmax of the block's scores at the group's rows -/

/-- The scores of group `k`'s row `r`. -/
theorem scK (k : Fin k0_t1_loop.trips) (hk : k.val < 4) (Xb : FVec Ideal S1024x1024 .bf16) (r : Fin 256) (d : Fin 1024) :
    scV (rowsOf (F := Ideal) k Xb) Xb (ix2 r d) = Cert.Pool.scores (mat Xb) (Cert.Pool.tileRow ⟨k.val, hk⟩ r) d :=
  (scoresT (rowsOf (F := Ideal) k Xb) Xb r d).trans
    (Finset.sum_congr rfl fun n _ => congrArg (· * Xb (ix2 d n)) (rowsOf_apply k hk Xb r n))

/-- Their shifted exponentials. -/
theorem exK (k : Fin k0_t1_loop.trips) (hk : k.val < 4) (Xb : FVec Ideal S1024x1024 .bf16) (r : Fin 256) (d : Fin 1024) :
    exV (scV (rowsOf (F := Ideal) k Xb) Xb) (ix2 r d) = Cert.Pool.expo (mat Xb) (Cert.Pool.tileRow ⟨k.val, hk⟩ r) d := by
  refine (exV_apply _ r d).trans ?_
  unfold Cert.Pool.expo Cert.Pool.rowMax
  rw [scK k hk Xb r d]
  exact congrArg (fun f => Ideal.exp (Cert.Pool.scores (mat Xb) (Cert.Pool.tileRow ⟨k.val, hk⟩ r) d
    - Finset.univ.fold max Cert.Pool.ninf f)) (funext fun e => scK k hk Xb r e)

/-- Their softmax weights. -/
theorem atK (k : Fin k0_t1_loop.trips) (hk : k.val < 4) (Xb : FVec Ideal S1024x1024 .bf16) (r : Fin 256) (d : Fin 1024) :
    atV (exV (scV (rowsOf (F := Ideal) k Xb) Xb)) (ix2 r d) = Cert.Pool.attn (mat Xb) (Cert.Pool.tileRow ⟨k.val, hk⟩ r) d := by
  refine (atV_apply _ r d).trans ?_
  unfold Cert.Pool.attn Cert.Pool.denom
  rw [exK k hk Xb r d]
  exact congrArg (Ideal.div (Cert.Pool.expo (mat Xb) (Cert.Pool.tileRow ⟨k.val, hk⟩ r) d))
    (Finset.sum_congr rfl fun e _ => exK k hk Xb r e)

/-- one step: the accumulator plus the column sums of the 256 softmax rows of group k -/
theorem pay3_apply (k : Fin k0_t1_loop.trips) (hk : k.val < 4) (Xb : FVec Ideal S1024x1024 .bf16) (acc : FVec Ideal S1x1024 .f32) (d : Fin 1024) :
    k0_pay3 (F := Ideal) (rowsOf k Xb) Xb acc (ix2 0 d) = acc (ix2 0 d) + Cert.Pool.tileSum (mat Xb) ⟨k.val, hk⟩ d := by
  refine (congrFun (pay3_eq (rowsOf (F := Ideal) k Xb) Xb acc) (ix2 0 d)).trans ?_
  refine (congrFun (shapeCast_self _ shapeCasts_S1x1024_S1x1024) (ix2 0 d)).trans ?_
  refine (addf_apply acc _ (ix2 0 d)).trans ?_
  refine congrArg (acc (ix2 0 d) + ·) ?_
  refine (rowcastT _ 0 d).trans ?_
  refine (colsumT _ d).trans ?_
  exact Finset.sum_congr rfl fun r _ => atK k hk Xb r d

end Cert.KernelIdeal.Body

end
-- ==== Proof.KEnds.lean ====
/-
  The body's first and last steps read at an index, at the extended reals.

  First: the block is cast from 1 × 1024 × 1024 to 1024 × 1024 and narrowed to the matmul format, which at the
  extended reals changes nothing: entry `(c, n)` of the result is entry `(0, c, n)` of the block; and the
  accumulator row starts at the word of zero.
  Last: the accumulator row `w` is scaled by the word of 1/1024 and multiplied, as a 1 × 1024 matrix, into the
  block: entry `n` is `∑_d (w_d · 1/1024) · X_{d n}`. The row `p` so obtained is divided by the larger of
  `sqrt (∑_j p_j · p_j)` and the word of ε.
-/
import proofs.«142518_j44805098832563_2_alg».proof.Proof.KDefs
import Idealize.ShloMosaic.PureOps.Ideal.Laws
import Idealize.ShloMosaic.Lib.Pipeline.Value
import Idealize.ShloMosaic.Lib.ValueLayout

noncomputable section

namespace Cert.KernelIdeal.Body

open Cert.KernelIdeal Cert.KernelIdeal.Gen
open Idealize.ShloMosaic Idealize.ShloMosaic.ValueIdx

/-- Entry `(c, n)` of the stored block is entry `(0, c, n)` of the input block. -/
theorem pay1_apply (x : Vec Ideal S1x1024x1024 .f32) (c n : Fin 1024) :
    k0_pay1 (F := Ideal) x (ix2 c n) = x (ix3 (0 : Fin 1) c n) := by
  unfold k0_pay1
  exact (congrFun (shapeCast_self _ _) (ix2 c n)).trans (shapeCast_1ab_ab_apply x _ c n)

/-- The accumulator row starts at the word of zero. -/
theorem pay2_apply (d : Fin 1024) : k0_pay2 (F := Ideal) (ix2 (0 : Fin 1) d) = Cert.Pool.zero := by
  unfold k0_pay2
  exact congrFun (shapeCast_self _ _) (ix2 (0 : Fin 1) d)

/-- The row vector times the block: a 1 × 1024 by 1024 × 1024 product into a zero. -/
def pooledVec (w : FVec Ideal S1x1024 .f32) (Xb : FVec Ideal S1024x1024 .bf16) : FVec Ideal S1x1024 .f32 :=
  matmul (F := Ideal) dot_S1x1024_S1024x1024_S1x1024_1_0_0_1_n_n none
    (truncf .bf16 (mulf w (broadcast S1x1024 (Scalar.ofBits (F := Ideal) .f32 0x3A800000#32))) bitsLt_bf16_f32) Xb
    (constant (F := Ideal) S1x1024 .f32 0x00000000#32)

theorem lhs_0 (j : S1x1024.Idx) (q : dot_S1x1024_S1024x1024_S1x1024_1_0_0_1_n_n.contr.Idx) :
    (dot_S1x1024_S1024x1024_S1x1024_1_0_0_1_n_n.lhsIdx j q 0).val = (j 0).val := by
  unfold DotDims.lhsIdx
  rw [dif_neg (show ¬(0 : Fin S1x1024.rank) ∈ dot_S1x1024_S1024x1024_S1x1024_1_0_0_1_n_n.lhsBatch by decide),
    dif_pos (show (0 : Fin S1x1024.rank) ∈ dot_S1x1024_S1024x1024_S1x1024_1_0_0_1_n_n.lhsNonContracting by decide)]
  rfl
theorem lhs_1 (j : S1x1024.Idx) (q : dot_S1x1024_S1024x1024_S1x1024_1_0_0_1_n_n.contr.Idx) :
    (dot_S1x1024_S1024x1024_S1x1024_1_0_0_1_n_n.lhsIdx j q 1).val = (q ⟨0, by decide⟩).val :=
  dot_S1x1024_S1024x1024_S1x1024_1_0_0_1_n_n.lhsIdx_val_of_single rfl j q
theorem rhs_0 (j : S1x1024.Idx) (q : dot_S1x1024_S1024x1024_S1x1024_1_0_0_1_n_n.contr.Idx) :
    (dot_S1x1024_S1024x1024_S1x1024_1_0_0_1_n_n.rhsIdx j q 0).val = (q ⟨0, by decide⟩).val :=
  dot_S1x1024_S1024x1024_S1x1024_1_0_0_1_n_n.rhsIdx_val_of_single rfl j q
theorem rhs_1 (j : S1x1024.Idx) (q : dot_S1x1024_S1024x1024_S1x1024_1_0_0_1_n_n.contr.Idx) :
    (dot_S1x1024_S1024x1024_S1x1024_1_0_0_1_n_n.rhsIdx j q 1).val = (j 1).val := by
  unfold DotDims.rhsIdx
  rw [dif_neg (show ¬(1 : Fin S1024x1024.rank) ∈ dot_S1x1024_S1024x1024_S1x1024_1_0_0_1_n_n.rhsBatch by decide),
    dif_pos (show (1 : Fin S1024x1024.rank) ∈ dot_S1x1024_S1024x1024_S1x1024_1_0_0_1_n_n.rhsNonContracting by decide)]
  rfl

/-- Entry `n` of the product is `∑_d (w_d · 1/1024) · X_{d n}`. -/
theorem pooledVec_apply (w : FVec Ideal S1x1024 .f32) (Xb : FVec Ideal S1024x1024 .bf16) (n : Fin 1024) :
    pooledVec w Xb (ix2 (0 : Fin 1) n) = ∑ d : Fin 1024, (w (ix2 (0 : Fin 1) d) * Cert.Pool.kinv) * Xb (ix2 d n) := by
  unfold pooledVec
  simp only [matmul]
  rw [Ideal.matmul_constant_zero_apply, ← Equiv.sum_comp (ValueIdx.contrEquiv1 dot_S1x1024_S1024x1024_S1x1024_1_0_0_1_n_n 1024 rfl rfl).symm]
  refine Finset.sum_congr rfl fun k _ => ?_
  have hk := ValueIdx.contrEquiv1_symm_val dot_S1x1024_S1024x1024_S1x1024_1_0_0_1_n_n 1024 rfl rfl k
  have el : dot_S1x1024_S1024x1024_S1x1024_1_0_0_1_n_n.lhsIdx (ix2 (0 : Fin 1) n) ((ValueIdx.contrEquiv1 dot_S1x1024_S1024x1024_S1x1024_1_0_0_1_n_n 1024 rfl rfl).symm k) = ix2 (0 : Fin 1) k := funext fun a => Fin.ext (by
    match a with
    | ⟨0, _⟩ => exact lhs_0 _ _
    | ⟨1, _⟩ => exact (lhs_1 _ _).trans hk)
  have er : dot_S1x1024_S1024x1024_S1x1024_1_0_0_1_n_n.rhsIdx (ix2 (0 : Fin 1) n) ((ValueIdx.contrEquiv1 dot_S1x1024_S1024x1024_S1x1024_1_0_0_1_n_n 1024 rfl rfl).symm k) = ix2 k n := funext fun a => Fin.ext (by
    match a with
    | ⟨0, _⟩ => exact (rhs_0 _ _).trans hk
    | ⟨1, _⟩ => exact rhs_1 _ _)
  rw [el, er]
  rfl

/-- The sum of the squares of a row, as the lane reduction spells it. -/
theorem rowsq_apply (v : FVec Ideal S1x1024 .f32) (h : S1x1024.Reduces [1] S1) (hφ : FKind.Formats FTy.f32)
    (hacc : (0x00000000#32 : BitVec FTy.f32.bits) = FKind.add.neutral .f32 hφ) :
    multiReduction (F := Ideal) .add [1] S1 v 0x00000000#32 h hφ hacc (ix1 (0 : Fin 1)) = ∑ k : Fin 1024, v (ix2 (0 : Fin 1) k) := by
  refine (Ideal.multiReduction_add_single v _ h hφ hacc (ix1 (0 : Fin 1))).trans ?_
  refine Finset.sum_congr rfl fun k _ => congrArg v (funext fun a => Fin.ext ?_)
  match a with
  | ⟨0, _⟩ => rfl
  | ⟨1, _⟩ => rfl

/-- The normalisation of a row, as the body spells it. -/
def normTail (p : FVec Ideal S1x1024 .f32) : FVec Ideal S1x1x1024 .f32 :=
  shapeCast S1x1x1024
    (divf p (broadcastTo S1x1024
      (maximumf (sqrt (shapeCast S1x1 (multiReduction (F := Ideal) .add [1] S1 (mulf p p) 0x00000000#32 reduces_S1x1024_S1 (.inl rfl) rfl) shapeCasts_S1_S1x1))
        (broadcast S1x1 (Scalar.ofBits (F := Ideal) .f32 0x2B8CBCCC#32)))
      broadcasts_S1x1_S1x1024))
    shapeCasts_S1x1024_S1x1x1024

/-- It is the row divided by the larger of its Euclidean norm and the word of ε. -/
theorem normTail_apply (p : FVec Ideal S1x1024 .f32) (n : Fin 1024) :
    normTail p (ix3 (0 : Fin 1) (0 : Fin 1) n) = Cert.Pool.normalize (fun j => p (ix2 (0 : Fin 1) j)) n := by
  unfold normTail
  refine (shapeCast_ab_1ab_apply _ shapeCasts_S1x1024_S1x1x1024 (0 : Fin 1) (0 : Fin 1) n).trans ?_
  show Ideal.div (p (ix2 (0 : Fin 1) n)) (broadcastTo S1x1024 _ broadcasts_S1x1_S1x1024 (ix2 (0 : Fin 1) n)) = _
  unfold Cert.Pool.normalize
  refine congrArg (Ideal.div (p (ix2 (0 : Fin 1) n))) ?_
  refine (broadcastTo_apply _ broadcasts_S1x1_S1x1024 (ix2 (0 : Fin 1) n) (ix2 (0 : Fin 1) (0 : Fin 1)) (fun a => by
    match a with
    | ⟨0, _⟩ => rfl
    | ⟨1, _⟩ => rfl)).trans ?_
  show max (Ideal.sqrt (shapeCast S1x1 _ shapeCasts_S1_S1x1 (ix2 (0 : Fin 1) (0 : Fin 1)))) (Ideal.ofBits .f32 0x2B8CBCCC#32) = _
  refine congrArg (fun s => max (Ideal.sqrt s) Cert.Pool.eps) ?_
  refine (shapeCast_a_1a_apply _ shapeCasts_S1_S1x1 (0 : Fin 1) (0 : Fin 1)).trans ?_
  exact rowsq_apply (mulf p p) _ _ _

/-- The last store's value at `(0, 0, n)`. -/
theorem pay4_apply (w : FVec Ideal S1x1024 .f32) (Xb : FVec Ideal S1024x1024 .bf16) (n : Fin 1024) :
    k0_pay4 (F := Ideal) w Xb (ix3 (0 : Fin 1) (0 : Fin 1) n)
      = Cert.Pool.normalize (fun n' => ∑ d : Fin 1024, (w (ix2 (0 : Fin 1) d) * Cert.Pool.kinv) * Xb (ix2 d n')) n := by
  have h : k0_pay4 (F := Ideal) w Xb = normTail (pooledVec w Xb) := rfl
  rw [h, normTail_apply]
  exact congrArg (fun p => Cert.Pool.normalize p n) (funext fun j => pooledVec_apply w Xb j)

end Cert.KernelIdeal.Body

end
-- ==== Proof.KRun.lean ====
/-
  What the kernel body leaves in its output block, read off the body's run.

  The run stores the block (in its matmul format) into the first scratch buffer, zeros into the accumulator
  row, and then, once per group of 256 query rows, stores into the accumulator row a function of the rows of
  that group, of the whole block, and of the accumulator row as the previous group left it. Every one of these
  stores covers its whole buffer, so what a later load reads is the last store's value. Hence, by induction over
  the groups, the accumulator row after `k` groups is `accAt` at `k`, and the one store into the output block
  holds `bodyVal` of the input block.
-/
import proofs.«142518_j44805098832563_2_alg».proof.Proof.Gen.KernelIdeal.Frame
import proofs.«142518_j44805098832563_2_alg».proof.Proof.KDefs
import Idealize.ShloMosaic.Lib.Pipeline.Value
import Idealize.ShloMosaic.Lib.Tactic

noncomputable section

namespace Cert.KernelIdeal.Body

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The store of zeros into the accumulator row. -/
abbrev zeroPiece : View.Piece (Elt F) S1x1024 .f32 :=
  ⟨Rect.unit (s := S1x1024) ![0, 0] S1x1024.size inb_S1x1024_S1x1024_0_0, k0_pay2⟩

/-- The store of a whole block into the first scratch buffer. -/
abbrev blockPiece (Xb : Vec F S1024x1024 .bf16) : View.Piece (Elt F) S1024x1024 .bf16 :=
  ⟨Rect.unit (s := S1024x1024) ![0, 0] S1024x1024.size inb_S1024x1024_S1024x1024_0_0, Xb⟩

/-- One group's pass stores ONE row into the accumulator: the step function of the rows of the group, of the
    whole block, and of the accumulator row it finds. -/
theorem tripL_eq (𝒱 : Variants) (c : Dev nD) (bd : Option 𝒱.V) (i : grid0.Coords)
    (a1 : Memref sig .tc .vmem S1x1024x1024 .f32) (h1 : a1.IsWhole) (a2 : Memref sig .tc .vmem S1x1x1024 .f32) (h2 : a2.IsWhole)
    (a3 : Memref sig .tc .vmem S1024x1024 .bf16) (h3 : a3.IsWhole) (a4 : Memref sig .tc .vmem S1x1024 .f32) (h4 : a4.IsWhole)
    (X : BufTy.Contents (Elt F) a3.view.ty) (k : Fin k0_t1_loop.trips) (f : BufTy.Contents (Elt F) a4.view.ty) :
    tripL_k0_t1 (F := F) 𝒱 c bd i a1 h1 a2 h2 a3 h3 a4 h4 X k f
      = [⟨Rect.unit (s := S1x1024) ![0, 0] S1x1024.size inb_S1x1024_S1x1024_0_0,
          k0_pay3 (View.readAt (Elt F) a3.view (Rect.unit (s := S1024x1024) (k0_off1 k) S256x1024.size (k0_off1_inb k)).toLoadRect X)
            (View.readAt (Elt F) a3.view (Rect.unit (s := S1024x1024) ![0, 0] S1024x1024.size inb_S1024x1024_S1024x1024_0_0).toLoadRect X)
            (View.readAt (Elt F) a4.view (Rect.unit (s := S1x1024) ![0, 0] S1x1024.size inb_S1x1024_S1x1024_0_0).toLoadRect f)⟩] := by
  unfold tripL_k0_t1 trip_k0_t1
  rfl

/-- A load of the whole first scratch buffer after the block was stored there reads the block. -/
theorem read_block (a3 : Memref sig .tc .vmem S1024x1024 .bf16) (Xb : Vec F S1024x1024 .bf16) :
    View.readAt (Elt F) a3.view (Rect.unit (s := S1024x1024) ![0, 0] S1024x1024.size inb_S1024x1024_S1024x1024_0_0).toLoadRect
        (a3.view.writes (Elt F) a3.view.junk [blockPiece Xb]) = Xb := by
  rw [View.readAt_writes_junk_eq_canon, View.canon_unit_zero hz2]
  exact View.ld_unit_zero (S := S1024x1024) hz2 _ Xb

/-- A load of one group's rows from it reads those rows of the block. -/
theorem read_rows (a3 : Memref sig .tc .vmem S1024x1024 .bf16) (Xb : Vec F S1024x1024 .bf16) (k : Fin k0_t1_loop.trips) :
    View.readAt (Elt F) a3.view (Rect.unit (s := S1024x1024) (k0_off1 k) S256x1024.size (k0_off1_inb k)).toLoadRect
        (a3.view.writes (Elt F) a3.view.junk [blockPiece Xb]) = rowsOf k Xb := by
  rw [View.readAt_writes_junk_eq_canon, View.canon_unit_zero hz2]
  rfl

/-- THE INVARIANT over the groups: the stores of the first `k` groups, over the store of zeros, leave the
    accumulator row at `accAt` of the block at `k`. -/
theorem acc_inv (𝒱 : Variants) (c : Dev nD) (bd : Option 𝒱.V) (i : grid0.Coords)
    (a1 : Memref sig .tc .vmem S1x1024x1024 .f32) (h1 : a1.IsWhole) (a2 : Memref sig .tc .vmem S1x1x1024 .f32) (h2 : a2.IsWhole)
    (a3 : Memref sig .tc .vmem S1024x1024 .bf16) (h3 : a3.IsWhole) (a4 : Memref sig .tc .vmem S1x1024 .f32) (h4 : a4.IsWhole)
    (Xb : Vec F S1024x1024 .bf16) :
    ∀ k : ℕ, k ≤ k0_t1_loop.trips →
      View.canon (pb_k0_t1 (F := F) 𝒱 c bd i a1 h1 a2 h2 a3 h3 a4 h4 (a3.view.writes (Elt F) a3.view.junk [blockPiece Xb])
          (a4.view.writes (Elt F) a4.view.junk [zeroPiece]) k ++ [zeroPiece]) = accAt Xb k
  | 0, _ => by
    rw [pb_k0_t1.eq_1, List.nil_append]
    exact View.canon_unit_zero hz2 _ _
  | k + 1, hk => by
    have hk' : k < k0_t1_loop.trips := hk
    have ih := acc_inv 𝒱 c bd i a1 h1 a2 h2 a3 h3 a4 h4 Xb k (Nat.le_of_lt hk')
    rw [pb_k0_t1_succ (F := F) 𝒱 c bd i a1 h1 a2 h2 a3 h3 a4 h4 _ _ ⟨k, hk'⟩, tripL_eq, List.append_assoc, List.singleton_append,
      View.canon_cons_unit_zero hz2, read_block, read_rows, ← View.writes_append, View.readAt_writes_junk_eq_canon, ih]
    rw [accAt, dif_pos hk']
    exact congrArg _ (View.ld_unit_zero (S := S1x1024) hz2 _ (accAt Xb k))

/-- What the body leaves in the output block is `bodyVal` of the input block. -/
theorem out_eq (c : Dev nD) (i : grid0.Coords)
    (a1 : Memref sig .tc .vmem S1x1024x1024 .f32) (h1 : a1.IsWhole) (a2 : Memref sig .tc .vmem S1x1x1024 .f32) (h2 : a2.IsWhole)
    (a3 : Memref sig .tc .vmem S1024x1024 .bf16) (h3 : a3.IsWhole) (a4 : Memref sig .tc .vmem S1x1024 .f32) (h4 : a4.IsWhole)
    (x : Vec F S1x1024x1024 .f32) :
    out0_A_1 c i a1 h1 a2 h2 a3 h3 a4 h4 x = bodyVal x := by
  unfold out0_A_1
  rw [View.read_writes_eq_canon _ _ _ (cover0_A_1 c i a1 h1 a2 h2 a3 h3 a4 h4 x)]
  unfold kernelRun0_A
  dsimp only
  sl_unfold_words
  rw [View.canon_unit_zero hz3]
  have hx : View.readAt (Elt F) a1.view (Rect.unit (s := S1x1024x1024) ![0, 0, 0] S1x1024x1024.size inb_S1x1024x1024_S1x1024x1024_0_0_0).toLoadRect (h1.unread x) = x := by
    rw [View.readAt_eq_ld, h1.read_unread]
    exact View.ld_unit_zero (S := S1x1024x1024) hz3 _ x
  rw [hx, View.readCov_unit_zero (S := S1024x1024) _ hz2, View.readAt_writes_junk_eq_canon,
    acc_inv Variants.none c none i a1 h1 a2 h2 a3 h3 a4 h4 (k0_pay1 x) _ (le_refl _)]
  unfold bodyVal
  exact congrArg (fun w => k0_pay4 w (k0_pay1 x)) (View.ld_unit_zero (S := S1x1024) hz2 _ _)

end Cert.KernelIdeal.Body

end
-- ==== Proof.KArray.lean ====
/-
  From the body's value at one grid point to the program's result array.

  Grid point `t` (one per batch entry, 64 of them) reads block `t` of the argument array — batch entry `t`, all
  1024 rows and columns — and writes back block `t` of the region's output array, the 1 × 1024 row at batch
  entry `t`. The output blocks tile the output array, so after the region it holds, at `(b, 0, n)`, entry `n` of
  the body's value of batch entry `b` (`outArr`). The program then drops the middle axis of extent one.
-/
import proofs.«142518_j44805098832563_2_alg».proof.Proof.KRun
import Idealize.ShloMosaic.Lib.Pipeline.Value
import Idealize.ShloMosaic.Lib.StableHlo.Run
import Idealize.ShloMosaic.Lib.Tactic

noncomputable section

namespace Cert.KernelIdeal.Body

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- Batch entry `b` of the argument array, as a block. -/
def slabBlock (A : S64x1024x1024.Idx → Elt F .f32) (b : Fin 64) : Vec F S1x1024x1024 .f32 :=
  fun y => A (ix3 b (⟨(y 1).val, (y 1).isLt⟩ : Fin 1024) (⟨(y 2).val, (y 2).isLt⟩ : Fin 1024))

/-- The region's output array as one function of the argument array. -/
def outArr (A : S64x1024x1024.Idx → Elt F .f32) : S64x1x1024.Idx → Elt F .f32 :=
  fun i => bodyVal (slabBlock A (⟨(i 0).val, (i 0).isLt⟩ : Fin 64)) (ix3 (0 : Fin 1) (0 : Fin 1) (⟨(i 2).val, (i 2).isLt⟩ : Fin 1024))

/-- The two index maps, decided over the grid: point `t` is at block `(t, 0, 0)` of both arrays. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

theorem t_lt (t : Fin cfg0.N) : t.val < 64 := by
  have h := t.isLt
  have hN : cfg0.N = 64 := N_0
  omega

/-- The input block at point `t` is batch entry `t` of the argument array as the region finds it. -/
theorem iblk_eq (c : Dev nD) (t : Fin cfg0.N) : iblk m c 0 t = slabBlock (V m c main_arg0) ⟨t.val, t_lt t⟩ := by
  obtain ⟨e0, e1, e2, -, -, -⟩ := idx_facts t
  unfold iblk slabBlock
  funext y
  show V m c main_arg0 (((cfg0.win 0).blk t).view.emb y) = V m c main_arg0 _
  refine congrArg _ (funext fun a => Fin.ext ?_)
  match a with
  | ⟨0, _⟩ => show win0_0.index t (0 : Fin 3) * 1 + 1 * (y 0).val = t.val; have hy : (y 0).val < 1 := (y 0).isLt; omega
  | ⟨1, _⟩ => show win0_0.index t (1 : Fin 3) * 1024 + 1 * (y 1).val = (y 1).val; omega
  | ⟨2, _⟩ => show win0_0.index t (2 : Fin 3) * 1024 + 1 * (y 2).val = (y 2).val; omega

/-- WHAT POINT `t` WRITES BACK is block `t` of `outArr` of the argument array. -/
theorem flushed_eq (c : Dev nD) (t : Fin cfg0.N) :
    (dats m 0 c).flushed 1 t = ((cfg0.win 1).blk t).view.read (Elt F) (outArr (V m c main_arg0)) := by
  obtain ⟨-, -, -, e0, e1, e2⟩ := idx_facts t
  show (cfg0.win 1).cut (grid0.coords t) ((dats m 0 c).after 1 t) = _
  rw [after0_1]
  unfold outsAt0
  rw [out_eq, iblk_eq]
  funext j
  show bodyVal (slabBlock (V m c main_arg0) ⟨t.val, t_lt t⟩) j = outArr (V m c main_arg0) (((cfg0.win 1).blk t).view.emb j)
  have key : ∀ (b b' : Fin 64) (q q' : S1x1x1024.Idx), b = b' → q = q' →
      bodyVal (slabBlock (V m c main_arg0) b) q = bodyVal (slabBlock (V m c main_arg0) b') q' := by
    intro b b' q q' hb hq; subst hb; subst hq; rfl
  unfold outArr
  refine key _ _ _ _ (Fin.ext ?_) (funext fun a => Fin.ext ?_)
  · show t.val = win0_1.index t (0 : Fin 3) * 1 + 1 * (j 0).val
    have hj : (j 0).val < 1 := (j 0).isLt; omega
  · match a with
    | ⟨0, _⟩ => show (j 0).val = 0; have hj : (j 0).val < 1 := (j 0).isLt; omega
    | ⟨1, _⟩ => show (j 1).val = 0; have hj : (j 1).val < 1 := (j 1).isLt; omega
    | ⟨2, _⟩ => show (j 2).val = win0_1.index t (2 : Fin 3) * 1024 + 1 * (j 2).val; omega

/-- An index of the output array is in point `t`'s block iff each coordinate is in the block's range. -/
theorem mem_blk (t : Fin cfg0.N) (i : S64x1x1024.Idx) :
    i ∈ ((cfg0.win 1).blk t).view.set ↔ ∀ a : Fin 3, win0_1.index t a * S1x1x1024.size a ≤ (i a).val ∧ (i a).val < win0_1.index t a * S1x1x1024.size a + S1x1x1024.size a := by
  show i ∈ ((View.whole main_v0).slice (win0_1.rect t)).set ↔ _
  rw [View.set_slice_whole, Rect.mem_set_unit]
  exact Iff.rfl

/-- The output blocks tile the output array: index `(b, 0, n)` is in the block of point `b`. -/
theorem cover (i : S64x1x1024.Idx) : ∃ t : Fin cfg0.N, (cfg0.win 1).flush t = true ∧ i ∈ ((cfg0.win 1).blk t).view.set := by
  have hN : cfg0.N = 64 := N_0
  have hi0 : (i 0).val < 64 := (i 0).isLt
  have hi1 : (i 1).val < 1 := (i 1).isLt
  have hi2 : (i 2).val < 1024 := (i 2).isLt
  let t : Fin cfg0.N := ⟨(i 0).val, by omega⟩
  obtain ⟨-, -, -, e0, e1, e2⟩ := idx_facts t
  have ht : t.val = (i 0).val := rfl
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1 ≤ (i 1).val ∧ (i 1).val < win0_1.index t (1 : Fin 3) * 1 + 1; omega
  | ⟨2, _⟩ => show win0_1.index t (2 : Fin 3) * 1024 ≤ (i 2).val ∧ (i 2).val < win0_1.index t (2 : Fin 3) * 1024 + 1024; omega

/-- THE OUTPUT ARRAY after the region. -/
theorem final_out (c : Dev nD) : (dats m 0 c).arrAt 1 cfg0.N = outArr (V m c main_arg0) :=
  (dats m 0 c).arrAt_eq_of_cover 1 (outArr (V m c main_arg0)) (fun t _ => flushed_eq m c t) cover

/-- The program's result as one function of the argument array: the output array with its middle axis dropped. -/
def resArr (A : S64x1024x1024.Idx → Elt F .f32) : S64x1024.Idx → Elt F .f32 :=
  shapeCast S64x1024 (outArr A) shapeCasts_S64x1x1024_S64x1024

/-- The host line after the region reshapes the output array as the region left it. -/
theorem tail_eq (c : Dev nD) :
    Pipeline.afterTail₀ cfgs (dats m) 0 (V0 m) [hostOps1] c main_v1 = resArr (m ((c.tc : Thread nD τ).loc main_arg0)) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.tc.devRef main_v0)
      = outArr (m ((c.tc : Thread nD τ).loc main_arg0)) :=
    (Pipeline.withArrays_arr spec0 launch0.win.arr_inj c _ _ 1).trans ((final_out m c).trans (by rw [V_main_arg0]))
  rw [e]
  rfl

/-- THE KERNEL'S RUN, read: the result array ends at `resArr` of the argument array, which ends unchanged. -/
theorem kernel_run : θ_run defs (onTc (τ := τ) (main (F := F))) ⟨m, fun _ => 0, ρ⟩ (fun r => ∀ c : Dev nD,
      r.2.mem ((c.tc : Thread nD τ).loc main_v1) = resArr (m ((c.tc : Thread nD τ).loc main_arg0))
      ∧ r.2.mem ((c.tc : Thread nD τ).loc main_arg0) = m ((c.tc : Thread nD τ).loc main_arg0)) :=
  (θ_run defs _ _).mono (fun r h c => ⟨((h c).2 main_v1 (by decide)).trans (tail_eq m c),
      ((h c).1 0).trans (((dats m 0 c).arrAt_in 0 rfl _).trans ((A_eq m c 0).trans (V_main_arg0 m c)))⟩) (run_main m ρ)

end Cert.KernelIdeal.Body

end
-- ==== Proof.KValue.lean ====
/-
  The kernel's result array read against the specification, at the extended reals.

  The accumulator row after the four groups is the column sums of the softmax, accumulated group by group onto
  the word of zero (`colSum`); with the first and last steps of the body this makes the body's value, at
  `(0, 0, n)`, the normalised "column sums first" pooled row of the batch entry. The result array drops the
  output array's middle axis, so its entry `(b, n)` is that of batch entry `b`.
-/
import proofs.«142518_j44805098832563_2_alg».proof.Proof.KStep
import proofs.«142518_j44805098832563_2_alg».proof.Proof.KEnds
import proofs.«142518_j44805098832563_2_alg».proof.Proof.KArray

noncomputable section

namespace Cert.KernelIdeal.Body

open Cert.KernelIdeal Cert.KernelIdeal.Gen
open Idealize.ShloMosaic Idealize.ShloMosaic.ValueIdx

/-- One step of the accumulator, for a group inside the range. -/
theorem accAt_succ (Xb : FVec Ideal S1024x1024 .bf16) (k : ℕ) (hk : k < k0_t1_loop.trips) :
    accAt (F := Ideal) Xb (k + 1) = k0_pay3 (F := Ideal) (rowsOf ⟨k, hk⟩ Xb) Xb (accAt Xb k) := by
  rw [accAt, dif_pos hk]

/-- The accumulator row after all four groups is the column sums of the softmax of the block. -/
theorem accAt_apply (Xb : FVec Ideal S1024x1024 .bf16) (d : Fin 1024) :
    accAt (F := Ideal) Xb k0_t1_loop.trips (ix2 (0 : Fin 1) d) = Cert.Pool.colSum (mat Xb) d := by
  have h0 : 0 < k0_t1_loop.trips := by rw [trips_eq]; decide
  have h1 : 1 < k0_t1_loop.trips := by rw [trips_eq]; decide
  have h2 : 2 < k0_t1_loop.trips := by rw [trips_eq]; decide
  have h3 : 3 < k0_t1_loop.trips := by rw [trips_eq]; decide
  have e4 : accAt (F := Ideal) Xb k0_t1_loop.trips = accAt Xb (3 + 1) := by rw [trips_eq]
  rw [e4, accAt_succ Xb 3 h3, pay3_apply ⟨3, h3⟩ (show (3 : ℕ) < 4 by decide) Xb _ d]
  rw [accAt_succ Xb 2 h2, pay3_apply ⟨2, h2⟩ (show (2 : ℕ) < 4 by decide) Xb _ d]
  rw [accAt_succ Xb 1 h1, pay3_apply ⟨1, h1⟩ (show (1 : ℕ) < 4 by decide) Xb _ d]
  rw [accAt_succ Xb 0 h0, pay3_apply ⟨0, h0⟩ (show (0 : ℕ) < 4 by decide) Xb _ d]
  rw [show accAt (F := Ideal) Xb 0 = k0_pay2 (F := Ideal) from rfl, pay2_apply]
  rfl

/-- The body's value at `(0, 0, n)`: the normalised pooled row of the batch entry, column sums first. -/
theorem bodyVal_apply (x : Vec Ideal S1x1024x1024 .f32) (n : Fin 1024) :
    bodyVal (F := Ideal) x (ix3 (0 : Fin 1) (0 : Fin 1) n)
      = Cert.Pool.normalize (Cert.Pool.pooledK (fun c n' => x (ix3 (0 : Fin 1) c n'))) n := by
  have hm : mat (k0_pay1 (F := Ideal) x) = fun c n' => x (ix3 (0 : Fin 1) c n') :=
    funext fun c => funext fun n' => pay1_apply x c n'
  unfold bodyVal
  rw [pay4_apply]
  refine congrArg (fun p => Cert.Pool.normalize p n) (funext fun n' => ?_)
  unfold Cert.Pool.pooledK
  refine Finset.sum_congr rfl fun d _ => ?_
  rw [accAt_apply, pay1_apply, hm]

/-- Entry `(b, n)` of the result array: the same of batch entry `b` of the argument array. -/
theorem resArr_apply (A : S64x1024x1024.Idx → Elt Ideal .f32) (b : Fin 64) (n : Fin 1024) :
    resArr (F := Ideal) A (ix2 b n) = Cert.Pool.normalize (Cert.Pool.pooledK (fun c n' => A (ix3 b c n'))) n := by
  unfold resArr
  refine (shapeCast_apply (outArr A) shapeCasts_S64x1x1024_S64x1024 (ix2 b n) (ix3 b (0 : Fin 1) n) ?_).trans ?_
  · rw [Shape.rowMajor_val_three, Shape.rowMajor_val_two]
    show (b.val * 1 + 0) * 1024 + n.val = b.val * 1024 + n.val
    omega
  · show bodyVal (slabBlock A b) (ix3 (0 : Fin 1) (0 : Fin 1) n) = _
    rw [bodyVal_apply]
    rfl

end Cert.KernelIdeal.Body

end
-- ==== Proof.Consts.lean ====
/-
  The float words the two programs spell, as the extended reals they denote: minus infinity (the
  starting value of a row maximum), plus infinity (the bound in "every input is finite"), zero (the starting value of every sum), 1024 and its reciprocal
  1/1024 (the mean over the 1024 query rows, written as a quotient on one side and as a product on the
  other; 1/1024 is a power of two, so its word denotes it exactly).
  The words are unfolded here once, so that no other module unfolds the decoding of a word.
-/
import Idealize.ShloMosaic.PureOps.Ideal

noncomputable section

namespace Cert.Consts

open Idealize.ShloMosaic

/-- The word of minus infinity denotes the bottom of the extended reals. -/
theorem ofBits_ninf : Ideal.ofBits .f32 0xFF800000#32 = ⊥ := by
  simp [Ideal.ofBits, Ideal.ieee]

/-- The word of plus infinity denotes the top of the extended reals. -/
theorem ofBits_pinf : Ideal.ofBits .f32 0x7F800000#32 = ⊤ := by
  simp [Ideal.ofBits, Ideal.ieee]

/-- The word of `+0.0` denotes `0`. -/
theorem ofBits_zero : Ideal.ofBits .f32 0x00000000#32 = 0 := by
  simp [Ideal.ofBits, Ideal.ieee]

/-- The word of `1024.0` denotes the real `1024`. -/
theorem ofBits_1024 : Ideal.ofBits .f32 0x44800000#32 = ((1024 : ℝ) : EReal) := by
  simp [Ideal.ofBits, Ideal.ieee, -EReal.coe_mul]; norm_num

/-- The word of `2⁻¹⁰` denotes the real `1/1024`. -/
theorem ofBits_inv1024 : Ideal.ofBits .f32 0x3A800000#32 = ((1 / 1024 : ℝ) : EReal) := by
  simp [Ideal.ofBits, Ideal.ieee, -EReal.coe_mul]; norm_num

end Cert.Consts

end
-- ==== Proof.RefIsPool.lean ====
/-
  The reference program, read against the specification, one batch entry at a time.

  The argument holds 64 matrices of 1024 rows and 1024 columns; entry `b` is `slab x b`. Each stage of the
  program, read at explicit coordinates, is the function of that matrix the specification names:

    the first product          X · Xᵀ                                       scores
    its row maximum            the fold of max from minus infinity          rowMax
    the shifted exponential    exp (score − row maximum)                    expo
    its row sum                                                             denom
    the quotient               the softmax weight                           attn
    the second product, its sum over the rows, the quotient by 1024         pooledR
    the quotient by the larger of the Euclidean norm and ε                  normalize

  Both sides are the same operations in the same order, so no hypothesis on the entries is needed. Only two
  facts of arithmetic enter: a sum that starts from the word of zero is the sum (`0 + s = s`), and the
  program's additional maximum of the row maximum with minus infinity changes nothing (`max ⊥ m = m`).
  The row maximum is a fold over one axis of a rank-3 array: the indices over `(b, c)` are `(b, c, d)` for
  the 1024 values of `d`, and max commutes and associates, so the fold is the fold over `d`.
-/
import proofs.«142518_j44805098832563_2_alg».proof.Proof.Gen.ReferenceIdeal.Read
import proofs.«142518_j44805098832563_2_alg».proof.Proof.Pool
import proofs.«142518_j44805098832563_2_alg».proof.Proof.Consts

noncomputable section

namespace Cert.ReferenceIdeal.RefPool

open Cert.ReferenceIdeal Cert.ReferenceIdeal.Read Idealize.ShloMosaic Idealize.ShloMosaic.ValueIdx

/-- batch entry b of the argument, as a matrix -/
def slab (x : (⟨S64x1024x1024, .f32⟩ : BufTy).Contents (Elt Ideal)) (b : Fin 64) : Cert.Pool.Mat := fun c n => x (ix3 b c n)

/-- Minus infinity is neutral for the maximum. -/
theorem max_ninf (y : EReal) : max Cert.Pool.ninf y = y := by
  show max (Ideal.ofBits .f32 0xFF800000#32) y = y
  rw [Cert.Consts.ofBits_ninf]
  exact max_eq_right bot_le

/-- The left factor of term k of the first product at (b, c, d) sits at (b, c, k) … -/
theorem lidx0 (b : Fin 64) (c d k : Fin 1024) : lidx_main_v0 (ix3 b c d) k = ix3 b c k :=
  funext fun a => Fin.ext (by match a with | ⟨0, _⟩ => rfl | ⟨1, _⟩ => rfl | ⟨2, _⟩ => rfl)
/-- … and the right factor at (b, d, k). -/
theorem ridx0 (b : Fin 64) (c d k : Fin 1024) : ridx_main_v0 (ix3 b c d) k = ix3 b d k :=
  funext fun a => Fin.ext (by match a with | ⟨0, _⟩ => rfl | ⟨1, _⟩ => rfl | ⟨2, _⟩ => rfl)

/-- The first product: the inner product of rows c and d of the batch entry. -/
theorem v0_eq (x : (⟨S64x1024x1024, .f32⟩ : BufTy).Contents (Elt Ideal)) (b : Fin 64) (c d : Fin 1024) :
    val_main_v0 (F := Ideal) x (ix3 b c d) = Cert.Pool.scores (slab x b) c d := by
  rw [val_main_v0_apply]
  unfold Cert.Pool.scores slab
  refine Finset.sum_congr rfl fun k _ => ?_
  rw [lidx0, ridx0]

/-- The index over (b, c) with d inserted on the last axis is (b, c, d). -/
theorem lift_d2 (h : S64x1024x1024.Reduces [2] S64x1024) (b : Fin 64) (c d : Fin 1024) :
    h.lift (ix2 b c) d = ix3 b c d :=
  funext fun a => Fin.ext (by match a with | ⟨0, _⟩ => rfl | ⟨1, _⟩ => rfl | ⟨2, _⟩ => rfl)

/-- The row maximum, read as the fold of max from minus infinity over the row. -/
theorem v1_eq (x : (⟨S64x1024x1024, .f32⟩ : BufTy).Contents (Elt Ideal)) (b : Fin 64) (c : Fin 1024) :
    val_main_v1 (F := Ideal) x (ix2 b c) = Cert.Pool.rowMax (slab x b) c := by
  have h : S64x1024x1024.Reduces [2] S64x1024 := by decide
  have hf : (val_main_v0 (F := Ideal) x ∘ h.lift (ix2 b c))
      = fun d : Fin 1024 => Cert.Pool.scores (slab x b) c d :=
    funext fun d : Fin 1024 =>
      (congrArg (val_main_v0 (F := Ideal) x) (lift_d2 h b c d)).trans (v0_eq x b c d)
  unfold val_main_v1
  rw [Host.reduce_eq_fold_single FloatOps.maximumf _ _ Gen.reducesTo_S64x1024x1024_S64x1024_d2 h Gen.h_S_ (ix2 b c), hf,
    val_main_cst_apply, Ideal.ofBits_def]
  rfl

/-- The reference's extra maximum with minus infinity leaves the row maximum unchanged. -/
theorem v3_eq (x : (⟨S64x1024x1024, .f32⟩ : BufTy).Contents (Elt Ideal)) (b : Fin 64) (c : Fin 1024) :
    val_main_v3 (F := Ideal) x (ix2 b c) = Cert.Pool.rowMax (slab x b) c := by
  rw [val_main_v3_apply, val_main_v2_apply, val_main_cst_0_apply, Ideal.ofBits_def, Ideal.maximumf_def, v1_eq]
  exact max_ninf _

/-- A row's maximum is read at (b, c) from every (b, c, d). -/
theorem idx45 (b : Fin 64) (c d : Fin 1024) : idx_main_v4 (idx_main_v5 (ix3 b c d)) = ix2 b c :=
  funext fun a => Fin.ext (by match a with | ⟨0, _⟩ => rfl | ⟨1, _⟩ => rfl)

/-- The shifted exponential of a score. -/
theorem v7_eq (x : (⟨S64x1024x1024, .f32⟩ : BufTy).Contents (Elt Ideal)) (b : Fin 64) (c d : Fin 1024) :
    val_main_v7 (F := Ideal) x (ix3 b c d) = Cert.Pool.expo (slab x b) c d := by
  rw [val_main_v7_apply, val_main_v6_apply, val_main_v5_apply, val_main_v4_apply, idx45, v3_eq, v0_eq,
    Ideal.hostUnary_exp_def, Ideal.subf_def]
  rfl

/-- Term k of the row sum at (b, c) sits at (b, c, k). -/
theorem idx8 (b : Fin 64) (c k : Fin 1024) : idx_main_v8 (ix2 b c) k = ix3 b c k :=
  funext fun a => Fin.ext (by match a with | ⟨0, _⟩ => rfl | ⟨1, _⟩ => rfl | ⟨2, _⟩ => rfl)

/-- The softmax denominator: the sum starts from zero. -/
theorem v8_eq (x : (⟨S64x1024x1024, .f32⟩ : BufTy).Contents (Elt Ideal)) (b : Fin 64) (c : Fin 1024) :
    val_main_v8 (F := Ideal) x (ix2 b c) = Cert.Pool.denom (slab x b) c := by
  rw [val_main_v8_apply, val_main_cst_1_apply, Ideal.ofBits_def, Ideal.ofBits_zero_f32, zero_add]
  unfold Cert.Pool.denom
  exact Finset.sum_congr rfl fun k _ => by rw [idx8, v7_eq]

/-- A row's denominator is read at (b, c) from every (b, c, d). -/
theorem idx910 (b : Fin 64) (c d : Fin 1024) : idx_main_v9 (idx_main_v10 (ix3 b c d)) = ix2 b c :=
  funext fun a => Fin.ext (by match a with | ⟨0, _⟩ => rfl | ⟨1, _⟩ => rfl)

/-- The softmax weight. -/
theorem v11_eq (x : (⟨S64x1024x1024, .f32⟩ : BufTy).Contents (Elt Ideal)) (b : Fin 64) (c d : Fin 1024) :
    val_main_v11 (F := Ideal) x (ix3 b c d) = Cert.Pool.attn (slab x b) c d := by
  rw [val_main_v11_apply, val_main_v10_apply, val_main_v9_apply, idx910, v8_eq, v7_eq, Ideal.hostDivf_def]
  rfl

/-- The left factor of term k of the second product at (b, c, n) sits at (b, c, k) … -/
theorem lidx12 (b : Fin 64) (c n k : Fin 1024) : lidx_main_v12 (ix3 b c n) k = ix3 b c k :=
  funext fun a => Fin.ext (by match a with | ⟨0, _⟩ => rfl | ⟨1, _⟩ => rfl | ⟨2, _⟩ => rfl)
/-- … and the right factor at (b, k, n). -/
theorem ridx12 (b : Fin 64) (c n k : Fin 1024) : ridx_main_v12 (ix3 b c n) k = ix3 b k n :=
  funext fun a => Fin.ext (by match a with | ⟨0, _⟩ => rfl | ⟨1, _⟩ => rfl | ⟨2, _⟩ => rfl)

/-- The second product: row c of the softmax weights against column n of the batch entry. -/
theorem v12_eq (x : (⟨S64x1024x1024, .f32⟩ : BufTy).Contents (Elt Ideal)) (b : Fin 64) (c n : Fin 1024) :
    val_main_v12 (F := Ideal) x (ix3 b c n) = ∑ d : Fin 1024, Cert.Pool.attn (slab x b) c d * slab x b d n := by
  rw [val_main_v12_apply]
  exact Finset.sum_congr rfl fun k _ => by rw [lidx12, ridx12, v11_eq]; rfl

/-- Term k of the sum over rows at (b, n) sits at (b, k, n). -/
theorem idx13 (b : Fin 64) (n k : Fin 1024) : idx_main_v13 (ix2 b n) k = ix3 b k n :=
  funext fun a => Fin.ext (by match a with | ⟨0, _⟩ => rfl | ⟨1, _⟩ => rfl | ⟨2, _⟩ => rfl)

/-- The sum of the product's rows, from zero. -/
theorem v13_eq (x : (⟨S64x1024x1024, .f32⟩ : BufTy).Contents (Elt Ideal)) (b : Fin 64) (n : Fin 1024) :
    val_main_v13 (F := Ideal) x (ix2 b n)
      = ∑ c : Fin 1024, ∑ d : Fin 1024, Cert.Pool.attn (slab x b) c d * slab x b d n := by
  rw [val_main_v13_apply, val_main_cst_2_apply, Ideal.ofBits_def, Ideal.ofBits_zero_f32, zero_add]
  exact Finset.sum_congr rfl fun k _ => by rw [idx13, v12_eq]

/-- The pooled row: the row sum divided by 1024. -/
theorem v15_eq (x : (⟨S64x1024x1024, .f32⟩ : BufTy).Contents (Elt Ideal)) (b : Fin 64) (n : Fin 1024) :
    val_main_v15 (F := Ideal) x (ix2 b n) = Cert.Pool.pooledR (slab x b) n := by
  rw [val_main_v15_apply, val_main_v14_apply, val_main_cst_3_apply, Ideal.ofBits_def, v13_eq, Ideal.hostDivf_def]
  rfl

/-- Term k of the sum of squares read from (b, n) sits at (b, k). -/
theorem idxn (b : Fin 64) (n k : Fin 1024) :
    idx_main_call0_v1 (idx_main_call0_v2 (idx_main_v19 (ix2 b n))) k = ix2 b k :=
  funext fun a => Fin.ext (by match a with | ⟨0, _⟩ => rfl | ⟨1, _⟩ => rfl)

/-- The Euclidean norm of the pooled row: the squares summed from zero, then the root. -/
theorem v16_eq (x : (⟨S64x1024x1024, .f32⟩ : BufTy).Contents (Elt Ideal)) (b : Fin 64) (n : Fin 1024) :
    val_main_v16 (F := Ideal) x (idx_main_v19 (ix2 b n))
      = Ideal.sqrt (∑ j : Fin 1024, Cert.Pool.pooledR (slab x b) j * Cert.Pool.pooledR (slab x b) j) := by
  rw [val_main_v16_apply, Ideal.hostUnary_sqrt_def, val_main_call0_v2_apply, val_main_call0_v1_apply,
    val_main_call0_cst_apply, Ideal.ofBits_def, Ideal.ofBits_zero_f32, zero_add]
  refine congrArg Ideal.sqrt (Finset.sum_congr rfl fun k _ => ?_)
  rw [idxn, val_main_call0_v0_apply, v15_eq, Ideal.mulf_def]

/-- The reference's result at batch entry b, column n: the normalised pooled row of that entry. -/
theorem ref_eq (x : (⟨S64x1024x1024, .f32⟩ : BufTy).Contents (Elt Ideal)) (b : Fin 64) (n : Fin 1024) :
    val_main_v20 (F := Ideal) x (ix2 b n) = Cert.Pool.normalize (Cert.Pool.pooledR (slab x b)) n := by
  rw [val_main_v20_apply, val_main_v19_apply, val_main_v18_apply, val_main_v17_apply, val_main_cst_4_apply,
    Ideal.ofBits_def, v16_eq, v15_eq, Ideal.hostDivf_def, Ideal.maximumf_def]
  rfl

end Cert.ReferenceIdeal.RefPool

end
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.PoolLaw.lean ====
/-
  The real-number law behind the two pooled rows. For a matrix `X` of real entries every intermediate of
  the row softmax is (the coercion of) a real: the scores are finite sums of products of reals; the row
  maximum of 1024 reals is a real; the shifted exponentials are positive reals, so the denominator is a
  positive real and the quotient is a real. Write `a c d` for the real softmax weights. Then

    pooledK X n = ∑_d ((∑_c a c d) · 1/1024) · X d n      (the 1024 rows taken as four blocks of 256)
    pooledR X n = (∑_c ∑_d a c d · X d n) · 1/1024        (division by 1024 is the product by 1/1024)

  and the two real numbers agree by exchanging the two finite sums and distributing the products.
-/
import proofs.«142518_j44805098832563_2_alg».proof.Proof.Pool
import proofs.«142518_j44805098832563_2_alg».proof.Proof.Consts
import proofs.«142518_j44805098832563_2_alg».proof.Proof.LibERealSums

namespace Cert.Pool

open Idealize.ShloMosaic Cert.LibERealSums

/-- The starting value of a row maximum is minus infinity. -/
theorem ninf_eq : ninf = ⊥ := Consts.ofBits_ninf
/-- The starting value of a sum is zero. -/
theorem zero_eq : zero = 0 := Consts.ofBits_zero
/-- The divisor of the mean is the real `1024`. -/
theorem k1024_eq : k1024 = ((1024 : ℝ) : EReal) := Consts.ofBits_1024
/-- The scale of the mean is the real `1/1024`. -/
theorem kinv_eq : kinv = ((1 / 1024 : ℝ) : EReal) := Consts.ofBits_inv1024

section Real

variable (X : Mat) (xr : Fin 1024 → Fin 1024 → ℝ) (hxr : ∀ c n, X c n = (xr c n : EReal))
include hxr

/-- A score of a real matrix is the real inner product of the two rows. -/
theorem scores_coe (c d : Fin 1024) :
    scores X c d = ((∑ n : Fin 1024, xr c n * xr d n : ℝ) : EReal) := by
  unfold scores
  refine sum_eq_coe _ _ _ fun n _ => ?_
  rw [hxr c n, hxr d n, EReal.coe_mul]

/-- The row maximum of a real matrix's scores is a real. -/
theorem rowMax_coe (c : Fin 1024) : ∃ m : ℝ, rowMax X c = (m : EReal) := by
  obtain ⟨m, hm⟩ := fold_max_bot_coe (Finset.univ : Finset (Fin 1024)) Finset.univ_nonempty
    (fun d => ∑ n : Fin 1024, xr c n * xr d n)
  refine ⟨m, ?_⟩
  rw [← hm]
  unfold rowMax
  rw [ninf_eq]
  exact congrArg (fun g : Fin 1024 → EReal => Finset.univ.fold max (⊥ : EReal) g)
    (funext fun d => scores_coe X xr hxr c d)

/-- The shifted exponentials of row `c` are the real exponentials of the real shifted scores. -/
theorem expo_coe (c : Fin 1024) : ∃ m : ℝ, ∀ d : Fin 1024,
    expo X c d = ((Real.exp ((∑ n : Fin 1024, xr c n * xr d n) - m) : ℝ) : EReal) := by
  obtain ⟨m, hm⟩ := rowMax_coe X xr hxr c
  refine ⟨m, fun d => ?_⟩
  unfold expo
  rw [hm, scores_coe X xr hxr c d, ← EReal.coe_sub, Ideal.exp_coe]

/-- A softmax weight of a real matrix is a real: the denominator is a sum of positive reals. -/
theorem attn_real (c d : Fin 1024) : ∃ a : ℝ, attn X c d = (a : EReal) := by
  obtain ⟨m, hm⟩ := expo_coe X xr hxr c
  have hden : denom X c
      = ((∑ e : Fin 1024, Real.exp ((∑ n : Fin 1024, xr c n * xr e n) - m) : ℝ) : EReal) := by
    unfold denom
    exact sum_eq_coe _ _ _ fun e _ => hm e
  have hpos : (0 : ℝ) < ∑ e : Fin 1024, Real.exp ((∑ n : Fin 1024, xr c n * xr e n) - m) :=
    Finset.sum_pos (fun e _ => Real.exp_pos _) Finset.univ_nonempty
  refine ⟨Real.exp ((∑ n : Fin 1024, xr c n * xr d n) - m)
    * (1 / ∑ e : Fin 1024, Real.exp ((∑ n : Fin 1024, xr c n * xr e n) - m)), ?_⟩
  unfold attn
  rw [hden, hm d, Ideal.div_coe (ne_of_gt hpos), ← EReal.coe_mul]

end Real

/-- The column sums of real softmax weights `a`: the four block sums added onto zero are the sum over
    all 1024 rows. -/
theorem colSum_coe (X : Mat) (a : Fin 1024 → Fin 1024 → ℝ) (ha : ∀ c d, attn X c d = (a c d : EReal))
    (d : Fin 1024) : colSum X d = ((∑ c : Fin 1024, a c d : ℝ) : EReal) := by
  have hts : ∀ k : Fin 4, tileSum X k d = ((∑ r : Fin 256, a (tileRow k r) d : ℝ) : EReal) := fun k => by
    unfold tileSum
    exact sum_eq_coe _ _ _ fun r _ => ha _ d
  unfold colSum
  rw [zero_eq, hts 0, hts 1, hts 2, hts 3, zero_add, ← EReal.coe_add, ← EReal.coe_add, ← EReal.coe_add]
  refine congrArg _ ?_
  rw [sum_fin_blocks (by norm_num : 4 * 256 = 1024) tileRow (fun _ _ => rfl) (fun c => a c d),
    Fin.sum_univ_four]

/-- For a matrix of real entries, summing the softmax rows first and then multiplying by `X` gives the
    same pooled row as multiplying first, summing the rows and dividing by 1024. -/
theorem pooled_eq (X : Mat) (hX : ∀ c n, ∃ r : ℝ, X c n = (r : EReal)) : pooledK X = pooledR X := by
  choose xr hxr using hX
  choose a ha using attn_real X xr hxr
  funext n
  have hK : pooledK X n
      = ((∑ d : Fin 1024, ((∑ c : Fin 1024, a c d) * (1 / 1024)) * xr d n : ℝ) : EReal) := by
    unfold pooledK
    refine sum_eq_coe _ _ _ fun d _ => ?_
    rw [colSum_coe X a ha d, kinv_eq, hxr d n, ← EReal.coe_mul, ← EReal.coe_mul]
  have hR : pooledR X n
      = (((∑ c : Fin 1024, ∑ d : Fin 1024, a c d * xr d n) * (1 / 1024) : ℝ) : EReal) := by
    unfold pooledR
    rw [k1024_eq, Ideal.div_coe (by norm_num : (1024 : ℝ) ≠ 0), EReal.coe_mul]
    refine congrArg (fun t : EReal => t * ((1 / 1024 : ℝ) : EReal)) ?_
    refine sum_eq_coe _ _ _ fun c _ => ?_
    refine sum_eq_coe _ _ _ fun d _ => ?_
    rw [ha c d, hxr d n, EReal.coe_mul]
  rw [hK, hR]
  refine congrArg _ ?_
  rw [Finset.sum_comm, Finset.sum_mul]
  refine Finset.sum_congr rfl fun d _ => ?_
  rw [← Finset.sum_mul]
  ring

end Cert.Pool
-- ==== Proof.Finite.lean ====
/-
  The precondition read: "every input is finite" is one `and` over the whole argument array of `|x| < +∞`.
  If it holds, every entry `x` has `max x (−x) < ⊤`, so `x` is neither `⊤` nor `⊥`: it is a real number.
-/
import proofs.«142518_j44805098832563_2_alg».proof.Pre_finite_inputs
import proofs.«142518_j44805098832563_2_alg».proof.Proof.Consts
import Idealize.ShloMosaic.PureOps.Ideal
import Idealize.ShloMosaic.Lib.ReduceAll
import Idealize.ShloMosaic.Lib.ValueIdx

noncomputable section

namespace Cert.Finite

open Idealize.ShloMosaic

instance : Subsingleton Cert.Pre_finite_inputs.S_.Idx := ⟨fun a b => funext fun d => d.elim0⟩

/-- An extended real whose absolute value is below `⊤` is a real number. -/
theorem real_of_abs_lt_top (x : EReal) (h : max x (-x) < ⊤) : ∃ r : ℝ, x = (r : EReal) := by
  have h1 : x ≠ ⊤ := fun e => by rw [e] at h; simp at h
  have h2 : x ≠ ⊥ := fun e => by rw [e] at h; simp at h
  exact ⟨x.toReal, (EReal.coe_toReal h1 h2).symm⟩

/-- Under the precondition every entry of the argument array is a real number. -/
theorem real_of_pre [Cert.Pre_finite_inputs.Facts] (x : FVec Ideal Cert.Pre_finite_inputs.S64x1024x1024 .f32)
    (h : Cert.Pre_finite_inputs.fn (F := Ideal) x = fun _ => 1#1) (i : Cert.Pre_finite_inputs.S64x1024x1024.Idx) :
    ∃ r : ℝ, x i = (r : EReal) := by
  have e := congrFun h ValueIdx.ix0
  dsimp only [Cert.Pre_finite_inputs.fn] at e
  have hi := Host.reduce_andi_all _ _ _ _ _ e i
  refine real_of_abs_lt_top (x i) ?_
  have hc : Ideal.cmp .olt (max (x i) (-(x i))) (Ideal.ofBits .f32 0x7F800000#32) = 1#1 := hi
  rw [Cert.Consts.ofBits_pinf] at hc
  have hc' : BitVec.ofBool (decide (max (x i) (-(x i)) < ⊤)) = 1#1 := hc
  by_contra hn
  rw [decide_eq_false hn] at hc'
  exact absurd hc' (by decide)

end Cert.Finite

end
-- ==== Proof.Bridge.lean ====
/-
  The two result arrays are one function of the argument array, when every input is finite.

  Entry `(b, n)` of the reference's result is the normalised pooled row of batch entry `b` with the product by
  the block formed first; the kernel's is the same with the column sums of the softmax formed first. For a batch
  entry of real numbers the two pooled rows are equal — the mean over the query rows is linear, so it commutes with
  the product by the block — and the precondition says exactly that every entry is a real number.
-/
import proofs.«142518_j44805098832563_2_alg».proof.Proof.KValue
import proofs.«142518_j44805098832563_2_alg».proof.Proof.RefIsPool
import proofs.«142518_j44805098832563_2_alg».proof.Proof.PoolLaw
import proofs.«142518_j44805098832563_2_alg».proof.Proof.Finite

noncomputable section

namespace Cert.Bridge

open Idealize.ShloMosaic Idealize.ShloMosaic.ValueIdx

/-- Under the precondition the reference's result array is the kernel's. -/
theorem result_eq [Cert.Pre_finite_inputs.Facts] (x : FVec Ideal Cert.Pre_finite_inputs.S64x1024x1024 .f32)
    (hpre : Cert.Pre_finite_inputs.fn (F := Ideal) x = fun _ => 1#1) :
    Cert.ReferenceIdeal.Read.val_main_v20 (F := Ideal) x = Cert.KernelIdeal.Body.resArr (F := Ideal) x := by
  funext i
  obtain ⟨b, n, rfl⟩ : ∃ (b : Fin 64) (n : Fin 1024), i = ix2 b n := ⟨i 0, i 1, eq_ix2 i⟩
  rw [Cert.ReferenceIdeal.RefPool.ref_eq, Cert.KernelIdeal.Body.resArr_apply]
  have hX : ∀ c n', ∃ r : ℝ, Cert.ReferenceIdeal.RefPool.slab x b c n' = (r : EReal) :=
    fun c n' => Cert.Finite.real_of_pre x hpre (ix3 b c n')
  rw [← Cert.Pool.pooled_eq (Cert.ReferenceIdeal.RefPool.slab x b) hX]
  rfl

end Cert.Bridge

end
-- ==== Proof.lean ====
/- The certificate's claims, assembled.

   Both programs take `x : f32[64, 1024, 1024]`; for each batch entry `X` (1024 × 1024) they form the row softmax
   `A` of `X · Xᵀ`, pool `A · X` over its 1024 rows by the mean, and divide the pooled row by the larger of its
   Euclidean norm and ε. The reference forms `A · X` and then the mean of its rows; the kernel sums the rows of `A`
   first (256 at a time, in a loop that accumulates into a scratch row), scales by 1/1024, and multiplies the one
   resulting row into `X`. Over the extended reals the two agree when every input is a real number: the mean over
   rows is linear and commutes with the product by `X`; with an infinite input the scores are infinite and the two
   orders of summation need not agree, which is why the precondition is used.

   The three frames: the two kernels' are the generated frame runs; the reference has no kernel, and its frame is its
   run with the result dropped. The idealization rewrote nothing, so there is nothing to preserve. The value claim:
   the kernel's run read off its frame run (the body's value through the loop, the blocks to the array, the reshape
   after the region), the reference's run read operation by operation, and the law above between them. -/
import proofs.«142518_j44805098832563_2_alg».proof.Defs
import proofs.«142518_j44805098832563_2_alg».proof.Proof.Gen.Kernel
import proofs.«142518_j44805098832563_2_alg».proof.Proof.Gen.Kernel.Skeleton
import proofs.«142518_j44805098832563_2_alg».proof.Proof.Gen.Kernel.Loops
import proofs.«142518_j44805098832563_2_alg».proof.Proof.Gen.Kernel.Launch
import proofs.«142518_j44805098832563_2_alg».proof.Proof.Gen.Kernel.Points
import proofs.«142518_j44805098832563_2_alg».proof.Proof.Gen.Kernel.Frame
import proofs.«142518_j44805098832563_2_alg».proof.Proof.Gen.KernelIdeal
import proofs.«142518_j44805098832563_2_alg».proof.Proof.Gen.KernelIdeal.Skeleton
import proofs.«142518_j44805098832563_2_alg».proof.Proof.Gen.KernelIdeal.Loops
import proofs.«142518_j44805098832563_2_alg».proof.Proof.Gen.KernelIdeal.Launch
import proofs.«142518_j44805098832563_2_alg».proof.Proof.Gen.KernelIdeal.Points
import proofs.«142518_j44805098832563_2_alg».proof.Proof.Gen.KernelIdeal.Frame
import proofs.«142518_j44805098832563_2_alg».proof.Proof.Gen.ReferenceIdeal
import proofs.«142518_j44805098832563_2_alg».proof.Proof.Gen.Pre_finite_inputs
import proofs.«142518_j44805098832563_2_alg».proof.Proof.Gen.ReferenceIdeal.Run
import proofs.«142518_j44805098832563_2_alg».proof.Proof.Gen.ReferenceIdeal.Read
import proofs.«142518_j44805098832563_2_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at one function of the argument array: the kernel's by its run read, the
    reference's by its run read and, the inputs being finite, the law that joins the two orders of summation. -/
theorem algebraic : Cert.algebraic_KernelIdeal_ReferenceIdeal := by
  intro m ρ m' ρ' hpre hagree
  refine ⟨fun c => Cert.KernelIdeal.Body.resArr (F := Ideal) (m ((c.tc : Thread Cert.KernelIdeal.nD Cert.KernelIdeal.τ).loc Cert.KernelIdeal.main_arg0)),
    Cert.KernelIdeal.Body.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, hagree c]
  exact Cert.Bridge.result_eq _ (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
